-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S4096x512 .f32 .bf16
  ∧ IdealRules.truncf_extf.Statement Cert.KernelIdeal.S4096x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S64x576 : Shape := ⟨2, ![64, 576]⟩
abbrev S64 : Shape := ⟨1, ![64]⟩
abbrev S64x64 : Shape := ⟨2, ![64, 64]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S64x576 : S_.BroadcastsInDim S64x576 (![] : Fin 0 → Fin S64x576.rank)
  reducesTo_S64x576_S_d0_1 : S64x576.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S262144x512 .f32) (main_arg1 : FVec F S64x576 .f32) (main_arg2 : FVec F S64 .f32) (main_arg3 : FVec F S64x64 .f32) (main_arg4 : FVec F S64 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S64x576 .f32 := Host.absf main_arg1
  let main_cst_0 : FVec F S_ .f32 := constant S_ .f32 0x7F800000#32
  let main_v5 : FVec F S64x576 .f32 := broadcastInDim S64x576 ![] bcast_S_S64x576 main_cst_0
  let main_v6 : IVec S64x576 1 := cmpf .olt main_v4 main_v5
  let main_c_1 : IVec S_ 1 := constantI S_ 1 1#1
  let main_v7 : IVec S_ 1 := (fun x v => Host.reduce IntOp.andi x v reducesTo_S64x576_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S262144x512 : Shape := ⟨2, ![262144, 512]⟩
abbrev S64x576 : Shape := ⟨2, ![64, 576]⟩
abbrev S64 : Shape := ⟨1, ![64]⟩
abbrev S64x64 : Shape := ⟨2, ![64, 64]⟩
abbrev S64x512 : Shape := ⟨2, ![64, 512]⟩
abbrev S512x64 : Shape := ⟨2, ![512, 64]⟩
abbrev S1x64 : Shape := ⟨2, ![1, 64]⟩
abbrev S131072x128 : Shape := ⟨2, ![131072, 128]⟩
abbrev S4096x512 : Shape := ⟨2, ![4096, 512]⟩
abbrev S2048x128 : Shape := ⟨2, ![2048, 128]⟩
abbrev S4096x64 : Shape := ⟨2, ![4096, 64]⟩
abbrev S2048x2x64 : Shape := ⟨3, ![2048, 2, 64]⟩
abbrev S262144x64 : Shape := ⟨2, ![262144, 64]⟩

abbrev nBuf : Space → Nat
  | .hbm => 20
  | .vmem => 10
  | .smem => 0
  | _ => 0

abbrev bufTy : (tb : Table) → Fin (tcTables nBuf tb) → BufTy
  | .hbm, ⟨0, _⟩ => ⟨S262144x512, .f32⟩
  | .hbm, ⟨1, _⟩ => ⟨S64x576, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x512, .f32⟩
  | .hbm, ⟨6, _⟩ => ⟨S512x64, .f32⟩
  | .hbm, ⟨7, _⟩ => ⟨S512x64, .bf16⟩
  | .hbm, ⟨8, _⟩ => ⟨S512x64, .f32⟩
  | .hbm, ⟨9, _⟩ => ⟨S512x64, .f32⟩
  | .hbm, ⟨10, _⟩ => ⟨S512x64, .bf16⟩
  | .hbm, ⟨11, _⟩ => ⟨S64x64, .f32⟩
  | .hbm, ⟨12, _⟩ => ⟨S64x64, .bf16⟩
  | .hbm, ⟨13, _⟩ => ⟨S64x64, .f32⟩
  | .hbm, ⟨14, _⟩ => ⟨S64x64, .f32⟩
  | .hbm, ⟨15, _⟩ => ⟨S64x64, .bf16⟩
  | .hbm, ⟨16, _⟩ => ⟨S1x64, .f32⟩
  | .hbm, ⟨17, _⟩ => ⟨S1x64, .f32⟩
  | .hbm, ⟨18, _⟩ => ⟨S131072x128, .f32⟩
  | .hbm, ⟨19, _⟩ => ⟨S262144x64, .f32⟩
  | .local _ .vmem, ⟨0, _⟩ => ⟨S4096x512, .f32⟩
  | .local _ .vmem, ⟨1, _⟩ => ⟨S4096x512, .f32⟩
  | .local _ .vmem, ⟨2, _⟩ => ⟨S512x64, .bf16⟩
  | .local _ .vmem, ⟨3, _⟩ => ⟨S512x64, .bf16⟩
  | .local _ .vmem, ⟨4, _⟩ => ⟨S1x64, .f32⟩
  | .local _ .vmem, ⟨5, _⟩ => ⟨S64x64, .bf16⟩
  | .local _ .vmem, ⟨6, _⟩ => ⟨S64x64, .bf16⟩
  | .local _ .vmem, ⟨7, _⟩ => ⟨S1x64, .f32⟩
  | .local _ .vmem, ⟨8, _⟩ => ⟨S2048x128, .f32⟩
  | .local _ .vmem, ⟨9, _⟩ => ⟨S2048x128, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S64x576_S64x512_0_0 : S64x576.Slices ![0, 0] S64x512
  transposes_S64x512_S512x64_1_0 : S64x512.Transposes [1, 0] S512x64
  bitsLt_bf16_f32 : FTy.bits .bf16 < FTy.bits .f32
  transposes_S64x64_S64x64_1_0 : S64x64.Transposes [1, 0] S64x64
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S4096x64_S2048x2x64 : S4096x64.ShapeCasts S2048x2x64
  shapeCasts_S2048x2x64_S2048x128 : S2048x2x64.ShapeCasts S2048x128
  inb_S2048x128_S2048x128_0_0 : ∀ a, (![0, 0] : Fin 2 → Nat) a + S2048x128.size a ≤ S2048x128.size a
  h_S2048x128 : 0 < S2048x128.numel
  shapeCasts_S131072x128_S262144x64 : S131072x128.ShapeCasts S262144x64
  dot_S4096x512_S512x64_S4096x64_1_0_0_1_n_n_wf : DotDims.WF S4096x512 S512x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .bf16 = 32 ∨ (Rect.block (s := S512x64) S512x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x512 : Shape := ⟨2, ![262144, 512]⟩
abbrev S64x576 : Shape := ⟨2, ![64, 576]⟩
abbrev S64 : Shape := ⟨1, ![64]⟩
abbrev S64x64 : Shape := ⟨2, ![64, 64]⟩
abbrev S64x512 : Shape := ⟨2, ![64, 512]⟩
abbrev S262144x64 : Shape := ⟨2, ![262144, 64]⟩
abbrev S1x64 : Shape := ⟨2, ![1, 64]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S64x576, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x512, .f32⟩
  | .hbm, ⟨6, _⟩ => ⟨S262144x64, .f32⟩
  | .hbm, ⟨7, _⟩ => ⟨S1x64, .f32⟩
  | .hbm, ⟨8, _⟩ => ⟨S262144x64, .f32⟩
  | .hbm, ⟨9, _⟩ => ⟨S262144x64, .f32⟩
  | .hbm, ⟨10, _⟩ => ⟨S262144x64, .f32⟩
  | .hbm, ⟨11, _⟩ => ⟨S262144x64, .f32⟩
  | .hbm, ⟨12, _⟩ => ⟨S1x64, .f32⟩
  | .hbm, ⟨13, _⟩ => ⟨S262144x64, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S_, .f32⟩
  | .hbm, ⟨18, _⟩ => ⟨S262144x64, .f32⟩
  | .hbm, ⟨19, _⟩ => ⟨S262144x64, .f32⟩
  | .hbm, ⟨20, _⟩ => ⟨S_, .f32⟩
  | .hbm, ⟨21, _⟩ => ⟨S262144x64, .f32⟩
  | .hbm, ⟨22, _⟩ => ⟨S262144x64, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  slices_S64x576_S64x512_0_0 : S64x576.Slices ![0, 0] S64x512
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  dot_S262144x512_S64x512_S262144x64_1_1_0_0_n_n_wf : DotDims.WF S262144x512 S64x512 S262144x64 [1] [1] [0] [0] [] []
  dot_S262144x64_S64x64_S262144x64_1_1_0_0_n_n_wf : DotDims.WF S262144x64 S64x64 S262144x64 [1] [1] [0] [0] [] []

variable [Facts₀]

def dot_S262144x512_S64x512_S262144x64_1_1_0_0_n_n : DotDims S262144x512 S64x512 S262144x64 where
  lhsContracting := [1]
  rhsContracting := [1]
  lhsNonContracting := [0]
  rhsNonContracting := [0]
  lhsBatch := []
  rhsBatch := []
  wf := dot_S262144x512_S64x512_S262144x64_1_1_0_0_n_n_wf
def dot_S262144x64_S64x64_S262144x64_1_1_0_0_n_n : DotDims S262144x64 S64x64 S262144x64 where
  lhsContracting := [1]
  rhsContracting := [1]
  lhsNonContracting := [0]
  rhsNonContracting := [0]
  lhsBatch := []
  rhsBatch := []
  wf := dot_S262144x64_S64x64_S262144x64_1_1_0_0_n_n_wf

class Facts : Prop extends Facts₀ where

variable [Facts]
-- ==== Proof.Finite.lean ====
/-
  The certificate's precondition compares, entry by entry, the absolute value of every float input with +∞
  and asks that every comparison hold. On the extended reals (the ideal reading of a float) the absolute
  value is `max x (-x)`, which is `⊤` at both `⊤` and `⊥`; so `|x| < ⊤` leaves only the real numbers:
  every entry of every input array is a real number.
-/
import proofs.«100092_j80487687127278_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.Jordan

open Cert.Pre_finite_inputs

/-- The scalar shape has one index. -/
instance : Subsingleton S_.Idx := ⟨fun a b => funext fun d => d.elim0⟩

/-- The 32-bit word `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` compares strictly below `+∞` is a real number:
    at `⊤` the maximum is `⊤`, at `⊥` it is `-⊥ = ⊤`, and `⊤ < ⊤` is false. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One `all`: if the conjunction over every index of `|a i| < +∞` is 1, every entry of `a` is a real number. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant (F := Ideal) S_ .f32 0x7F800000#32)))
      (constantI S_ 1 1#1) hr hu ValueIdx.ix0 = 1#1) :
    ∀ i, ∃ r : ℝ, a i = (r : EReal) := by
  intro i
  have h := Host.reduce_andi_all _ _ hr hu ValueIdx.ix0 e i
  refine real_of_abs_lt_top (a i) ?_
  rw [← ofBits_inf]
  exact h

/-- The precondition gives, for each of the five argument arrays, that every entry is a real number: the printed
    predicate is the conjunction of five `all`s, one per array, each of `|x| < +∞` entrywise. -/
theorem finite_of_pre [Cert.Pre_finite_inputs.Facts]
    (a0 : FVec Ideal Cert.Pre_finite_inputs.S262144x512 .f32) (a1 : FVec Ideal Cert.Pre_finite_inputs.S64x576 .f32)
    (a2 : FVec Ideal Cert.Pre_finite_inputs.S64 .f32) (a3 : FVec Ideal Cert.Pre_finite_inputs.S64x64 .f32)
    (a4 : FVec Ideal Cert.Pre_finite_inputs.S64 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  -- the result is ((((all a0 ∧ all a1) ∧ all a2) ∧ all a3) ∧ all a4), each `∧` pointwise on one-bit words
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all _ _ _ a0 e0, real_of_all _ _ _ a1 e1, real_of_all _ _ _ a2 e2, real_of_all _ _ _ a3 e3,
    real_of_all _ _ _ a4 e4⟩

end Cert.Jordan
-- ==== Proof.Spec.lean ====
/-
  The mathematics shared by both programs.

  Both compute, for every sample `b` and output unit `o`,
      out b o = σ( Σ_k tanh( Σ_j x b j · W_h k j + b_h k ) · W_o o k + b_o o ),
  on the extended reals: the hidden layer is a `tanh` of an affine map that reads only the first 512 columns of
  `W_h`, the output a logistic of an affine map of the hidden layer. The kernel forms each matrix product in three
  passes — a·b_hi + a·b_lo + (a − a)·b_hi, where b_lo is b − b — which collapses to a·b_hi as soon as every entry of
  `a` and of `b` is a real number (a real minus itself is zero, and zero times anything is zero; at an infinity
  a − a is not zero, which is where finiteness of the inputs is used). The hidden layer is a real whatever its
  argument, since `tanh` maps the extended reals into [-1, 1].
  The kernel writes two consecutive samples side by side in one 128-wide row; reading the packed array back in
  row-major order as 64-wide rows returns the samples in order.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Jordan

/-! ## Extended-real facts -/

/-- A real number minus itself is zero (false at the infinities). -/
theorem sub_self_of_real {a : EReal} (h : ∃ r : ℝ, a = (r : EReal)) : a - a = 0 := by
  obtain ⟨r, rfl⟩ := h
  rw [← EReal.coe_sub, sub_self, EReal.coe_zero]

/-- `tanh` of any extended real is a real number: -1 and 1 at the infinities. -/
theorem tanh_real (z : EReal) : ∃ r : ℝ, Ideal.tanh z = (r : EReal) := by
  induction z using EReal.rec with
  | bot => exact ⟨-1, by rw [Ideal.tanh_bot]; norm_num⟩
  | coe r => exact ⟨Real.tanh r, rfl⟩
  | top => exact ⟨1, by rw [Ideal.tanh_top]; norm_num⟩

/-- The word of the float 1.0 denotes the number one. -/
theorem ofBits_one : Ideal.ofBits .f32 0x3F800000#32 = 1 := by
  simp [Ideal.ofBits, Ideal.ieee, -EReal.coe_mul]
  norm_num

/-- The three-pass product collapses: with every `a k` real and every `blo k` zero,
    Σ a·b_hi + Σ a·b_lo + Σ (a − a)·b_hi = Σ a·b_hi. -/
theorem sum_three_pass {ι : Type*} [Fintype ι] (a bhi blo : ι → EReal) (ha : ∀ k, ∃ r : ℝ, a k = (r : EReal))
    (hlo : ∀ k, blo k = 0) :
    (∑ k, a k * bhi k) + (∑ k, a k * blo k) + (∑ k, (a k - a k) * bhi k) = ∑ k, a k * bhi k := by
  have h1 : ∑ k, a k * blo k = 0 := Finset.sum_eq_zero fun k _ => by rw [hlo, mul_zero]
  have h2 : ∑ k, (a k - a k) * bhi k = 0 :=
    Finset.sum_eq_zero fun k _ => by rw [sub_self_of_real (ha k), zero_mul]
  rw [h1, h2, add_zero, add_zero]

/-! ## The function both programs compute -/

/-- Hidden unit `h` of sample `b`: tanh of the affine map over the first 512 columns of the hidden weights. -/
def hiddenAt (x : (⟨2, ![262144, 512]⟩ : Shape).Idx → EReal) (wh : (⟨2, ![64, 576]⟩ : Shape).Idx → EReal)
    (bh : (⟨1, ![64]⟩ : Shape).Idx → EReal) (b : Fin 262144) (h : Fin 64) : EReal :=
  Ideal.tanh ((∑ k : Fin 512, x (ix2 b k) * wh (ix2 h ⟨k.val, by have := k.isLt; omega⟩)) + bh (ix1 h))

/-- Output unit `o` of sample `b`: the logistic of the affine map of the hidden layer. -/
def outAt (x : (⟨2, ![262144, 512]⟩ : Shape).Idx → EReal) (wh : (⟨2, ![64, 576]⟩ : Shape).Idx → EReal)
    (bh : (⟨1, ![64]⟩ : Shape).Idx → EReal) (wo : (⟨2, ![64, 64]⟩ : Shape).Idx → EReal)
    (bo : (⟨1, ![64]⟩ : Shape).Idx → EReal) (b : Fin 262144) (o : Fin 64) : EReal :=
  Ideal.logistic ((∑ k : Fin 64, hiddenAt x wh bh b k * wo (ix2 o k)) + bo (ix1 o))

/-- The result array, sample by sample. -/
def result (x : (⟨2, ![262144, 512]⟩ : Shape).Idx → EReal) (wh : (⟨2, ![64, 576]⟩ : Shape).Idx → EReal)
    (bh : (⟨1, ![64]⟩ : Shape).Idx → EReal) (wo : (⟨2, ![64, 64]⟩ : Shape).Idx → EReal)
    (bo : (⟨1, ![64]⟩ : Shape).Idx → EReal) : (⟨2, ![262144, 64]⟩ : Shape).Idx → EReal :=
  fun i => outAt x wh bh wo bo (i 0) (i 1)

/-- The same numbers with samples 2P and 2P + 1 side by side in row P: lane Q of row P is output unit Q mod 64 of
    sample 2P + Q / 64. -/
def packed (x : (⟨2, ![262144, 512]⟩ : Shape).Idx → EReal) (wh : (⟨2, ![64, 576]⟩ : Shape).Idx → EReal)
    (bh : (⟨1, ![64]⟩ : Shape).Idx → EReal) (wo : (⟨2, ![64, 64]⟩ : Shape).Idx → EReal)
    (bo : (⟨1, ![64]⟩ : Shape).Idx → EReal) : (⟨2, ![131072, 128]⟩ : Shape).Idx → EReal :=
  fun i => outAt x wh bh wo bo
    ⟨2 * (i 0).val + (i 1).val / 64, by have := idx2_lt0 i; have := idx2_lt1 i; omega⟩
    ⟨(i 1).val % 64, Nat.mod_lt _ (by norm_num)⟩

/-- Reading the packed array in row-major order as 64-wide rows gives the result array. -/
theorem unpack (x : (⟨2, ![262144, 512]⟩ : Shape).Idx → EReal) (wh : (⟨2, ![64, 576]⟩ : Shape).Idx → EReal)
    (bh : (⟨1, ![64]⟩ : Shape).Idx → EReal) (wo : (⟨2, ![64, 64]⟩ : Shape).Idx → EReal)
    (bo : (⟨1, ![64]⟩ : Shape).Idx → EReal)
    (h : (⟨2, ![131072, 128]⟩ : Shape).ShapeCasts ⟨2, ![262144, 64]⟩) :
    shapeCast ⟨2, ![262144, 64]⟩ (packed x wh bh wo bo) h = result x wh bh wo bo := by
  funext j
  have h0 := idx2_lt0 j
  have h1 := idx2_lt1 j
  refine (shapeCast_apply _ h j (ix2 (⟨(j 0).val / 2, by omega⟩ : Fin 131072) (⟨(j 0).val % 2 * 64 + (j 1).val, by omega⟩ : Fin 128))
    (by rw [Shape.rowMajor_val_two, Shape.rowMajor_val_two]
        show (j 0).val / 2 * 128 + ((j 0).val % 2 * 64 + (j 1).val) = (j 0).val * 64 + (j 1).val
        omega)).trans ?_
  unfold packed result
  congr 1 <;> apply Fin.ext
  · show 2 * ((j 0).val / 2) + ((j 0).val % 2 * 64 + (j 1).val) / 64 = (j 0).val
    omega
  · show ((j 0).val % 2 * 64 + (j 1).val) % 64 = (j 1).val
    omega

end Cert.Jordan

end
-- ==== Proof.RefIs.lean ====
/-
  The reference program computes the function of Spec: its two `dot_general`s contract the feature axis of `x`
  against the column axis of the sliced hidden weights, and the hidden axis against the column axis of the output
  weights; the biases are broadcast along the samples; and the reference's spelling of the logistic, 1 / (1 + e^(−z)),
  is the logistic's own definition on the extended reals.
-/
import proofs.«100092_j80487687127278_2_alg».proof.Proof.Gen.ReferenceIdeal.Read
import proofs.«100092_j80487687127278_2_alg».proof.Proof.Spec

noncomputable section

open Idealize.ShloMosaic Idealize.ShloMosaic.ValueIdx

namespace Cert.Jordan.Reference

open Cert.ReferenceIdeal Cert.ReferenceIdeal.Read

/-! The composed index maps of the reference's operations, as indices built from coordinates. -/

theorem idx_x (i : S262144x64.Idx) (k : Fin 64) (j : Fin 512) :
    lidx_main_v1 (lidx_main_v6 i k) j = ix2 (i 0) j :=
  funext fun a => Fin.ext (by match a with | ⟨0, _⟩ => rfl | ⟨1, _⟩ => rfl)

theorem idx_wh (i : S262144x64.Idx) (k : Fin 64) (j : Fin 512) :
    idx_main_v0 (ridx_main_v1 (lidx_main_v6 i k) j) = ix2 k (⟨j.val, by have := j.isLt; omega⟩ : Fin 576) :=
  funext fun a => Fin.ext (by match a with | ⟨0, _⟩ => rfl | ⟨1, _⟩ => rfl)

theorem idx_bh (i : S262144x64.Idx) (k : Fin 64) :
    idx_main_v2 (idx_main_v3 (lidx_main_v6 i k)) = ix1 k :=
  funext fun a => Fin.ext (by match a with | ⟨0, _⟩ => rfl)

theorem idx_wo (i : S262144x64.Idx) (k : Fin 64) : ridx_main_v6 i k = ix2 (i 1) k :=
  funext fun a => Fin.ext (by match a with | ⟨0, _⟩ => rfl | ⟨1, _⟩ => rfl)

theorem idx_bo (i : S262144x64.Idx) : idx_main_v7 (idx_main_v8 i) = ix1 (i 1) :=
  funext fun a => Fin.ext (by match a with | ⟨0, _⟩ => rfl)

/-- The reference's result, stage by stage, is `result` of its arguments. -/
theorem reference_eq (x0 : (⟨S262144x512, .f32⟩ : BufTy).Contents (Elt Ideal)) (x1 : (⟨S64x576, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) :
    val_main_v15 (F := Ideal) x0 x1 x2 x3 x4 = result x0 x1 x2 x3 x4 := by
  funext i
  rw [val_main_v15_apply, val_main_v14_apply, val_main_cst_0_apply, val_main_v13_apply, val_main_v12_apply, val_main_cst_apply,
    val_main_v11_apply, val_main_v10_apply, val_main_v9_apply, val_main_v6_apply, val_main_v8_apply, val_main_v7_apply]
  simp only [val_main_v5_apply, val_main_v4_apply, val_main_v1_apply, val_main_v3_apply, val_main_v2_apply, val_main_v0_apply,
    idx_x, idx_wh, idx_bh, idx_wo, idx_bo]
  unfold result outAt hiddenAt Ideal.logistic
  simp only [Ideal.hostDivf_def, Ideal.addf_def, Ideal.hostUnary_exp_def, Ideal.hostNegf_def, Ideal.hostUnary_tanh_def,
    Ideal.ofBits_def, ofBits_one]
  rfl

end Cert.Jordan.Reference

end
-- ==== Proof.Body.lean ====
/-
  The kernel body at one entry of the block it stores. At row `p`, lane `q` of the packed 2048 × 128 block the body
  stores entry (2p + q / 64, q mod 64) of the 4096 × 64 logistic layer (the two reshapes keep the row-major position).
  That layer is the logistic of a three-pass product of the hidden layer with the output weights plus the output bias,
  and the hidden layer the `tanh` of a three-pass product of the sample block with the hidden weights plus the hidden
  bias. With real entries in the sample block and zero low parts of both weights each three-pass product is the plain
  one (Spec), the hidden layer being real whatever it is applied to.
-/
import proofs.«100092_j80487687127278_2_alg».proof.Proof.Gen.KernelIdeal.Skeleton
import proofs.«100092_j80487687127278_2_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Jordan.Body

open Cert.KernelIdeal Cert.KernelIdeal.Gen

/-! ## The two matrix products at an entry -/

theorem dotIn_lhs0 (i : S4096x64.Idx) (q : dot_S4096x512_S512x64_S4096x64_1_0_0_1_n_n.contr.Idx) : (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl

theorem dotIn_rhs1 (i : S4096x64.Idx) (q : dot_S4096x512_S512x64_S4096x64_1_0_0_1_n_n.contr.Idx) : (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

/-- Into a zero accumulator the product at row `r`, column `k` is the sum over the contracted axis. -/
theorem dotIn_apply (a : FVec Ideal S4096x512 .bf16) (b : FVec Ideal S512x64 .bf16) (r : Fin 4096) (k : Fin 64) :
    matmul dot_S4096x512_S512x64_S4096x64_1_0_0_1_n_n none a b (constant S4096x64 .f32 0x00000000#32) (ix2 r k)
      = ∑ j : Fin 512, (a (ix2 r j) : EReal) * (b (ix2 j k) : EReal) := by
  simp only [matmul]
  rw [Ideal.matmul_constant_zero_apply, ← Equiv.sum_comp (contrEquiv1 dot_S4096x512_S512x64_S4096x64_1_0_0_1_n_n 512 rfl rfl).symm]
  refine Finset.sum_congr rfl fun j _ => ?_
  have hk := contrEquiv1_symm_val dot_S4096x512_S512x64_S4096x64_1_0_0_1_n_n 512 rfl rfl j
  have el : dot_S4096x512_S512x64_S4096x64_1_0_0_1_n_n.lhsIdx (ix2 r k) ((contrEquiv1 dot_S4096x512_S512x64_S4096x64_1_0_0_1_n_n 512 rfl rfl).symm j) = ix2 r j := funext fun a => Fin.ext (by
    match a with
    | ⟨0, _⟩ => exact dotIn_lhs0 _ _
    | ⟨1, _⟩ => exact (dot_S4096x512_S512x64_S4096x64_1_0_0_1_n_n.lhsIdx_val_of_single rfl _ _).trans hk)
  have er : dot_S4096x512_S512x64_S4096x64_1_0_0_1_n_n.rhsIdx (ix2 r k) ((contrEquiv1 dot_S4096x512_S512x64_S4096x64_1_0_0_1_n_n 512 rfl rfl).symm j) = ix2 j k := funext fun a => Fin.ext (by
    match a with
    | ⟨0, _⟩ => exact (dot_S4096x512_S512x64_S4096x64_1_0_0_1_n_n.rhsIdx_val_of_single rfl _ _).trans hk
    | ⟨1, _⟩ => exact dotIn_rhs1 _ _)
  rw [el, er]

/-- The three passes a·b_hi + a·b_lo + (a − a)·b_hi at an entry, for `a` of real entries and `b_lo` zero: a·b_hi. -/
theorem dotIn_three (a : FVec Ideal S4096x512 .f32) (bhi blo : FVec Ideal S512x64 .bf16)
    (ha : ∀ i, ∃ r : ℝ, a i = (r : EReal)) (hlo : ∀ i, blo i = (0 : EReal)) (r : Fin 4096) (k : Fin 64) :
    addf (addf (matmul dot_S4096x512_S512x64_S4096x64_1_0_0_1_n_n none (truncf .bf16 a bitsLt_bf16_f32) bhi (constant S4096x64 .f32 0x00000000#32))
        (matmul dot_S4096x512_S512x64_S4096x64_1_0_0_1_n_n none (truncf .bf16 a bitsLt_bf16_f32) blo (constant S4096x64 .f32 0x00000000#32)))
      (matmul dot_S4096x512_S512x64_S4096x64_1_0_0_1_n_n none (truncf .bf16 (subf a a) bitsLt_bf16_f32) bhi (constant S4096x64 .f32 0x00000000#32)) (ix2 r k)
      = ∑ j : Fin 512, (a (ix2 r j) : EReal) * (bhi (ix2 j k) : EReal) := by
  rw [addf_apply, addf_apply, dotIn_apply, dotIn_apply, dotIn_apply]
  exact sum_three_pass (fun j => a (ix2 r j)) (fun j => bhi (ix2 j k)) (fun j => blo (ix2 j k)) (fun j => ha _) (fun j => hlo _)

theorem dotOut_lhs0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl

theorem dotOut_rhs1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Into a zero accumulator the product at row `r`, column `k` is the sum over the contracted axis. -/
theorem dotOut_apply (a : FVec Ideal S4096x64 .bf16) (b : FVec Ideal S64x64 .bf16) (r : Fin 4096) (k : Fin 64) :
    matmul dot_S4096x64_S64x64_S4096x64_1_0_0_1_n_n none a b (constant S4096x64 .f32 0x00000000#32) (ix2 r k)
      = ∑ j : Fin 64, (a (ix2 r j) : EReal) * (b (ix2 j k) : EReal) := by
  simp only [matmul]
  rw [Ideal.matmul_constant_zero_apply, ← Equiv.sum_comp (contrEquiv1 dot_S4096x64_S64x64_S4096x64_1_0_0_1_n_n 64 rfl rfl).symm]
  refine Finset.sum_congr rfl fun j _ => ?_
  have hk := contrEquiv1_symm_val dot_S4096x64_S64x64_S4096x64_1_0_0_1_n_n 64 rfl rfl j
  have el : dot_S4096x64_S64x64_S4096x64_1_0_0_1_n_n.lhsIdx (ix2 r k) ((contrEquiv1 dot_S4096x64_S64x64_S4096x64_1_0_0_1_n_n 64 rfl rfl).symm j) = ix2 r j := funext fun a => Fin.ext (by
    match a with
    | ⟨0, _⟩ => exact dotOut_lhs0 _ _
    | ⟨1, _⟩ => exact (dot_S4096x64_S64x64_S4096x64_1_0_0_1_n_n.lhsIdx_val_of_single rfl _ _).trans hk)
  have er : dot_S4096x64_S64x64_S4096x64_1_0_0_1_n_n.rhsIdx (ix2 r k) ((contrEquiv1 dot_S4096x64_S64x64_S4096x64_1_0_0_1_n_n 64 rfl rfl).symm j) = ix2 j k := funext fun a => Fin.ext (by
    match a with
    | ⟨0, _⟩ => exact (dot_S4096x64_S64x64_S4096x64_1_0_0_1_n_n.rhsIdx_val_of_single rfl _ _).trans hk
    | ⟨1, _⟩ => exact dotOut_rhs1 _ _)
  rw [el, er]

/-- The three passes a·b_hi + a·b_lo + (a − a)·b_hi at an entry, for `a` of real entries and `b_lo` zero: a·b_hi. -/
theorem dotOut_three (a : FVec Ideal S4096x64 .f32) (bhi blo : FVec Ideal S64x64 .bf16)
    (ha : ∀ i, ∃ r : ℝ, a i = (r : EReal)) (hlo : ∀ i, blo i = (0 : EReal)) (r : Fin 4096) (k : Fin 64) :
    addf (addf (matmul dot_S4096x64_S64x64_S4096x64_1_0_0_1_n_n none (truncf .bf16 a bitsLt_bf16_f32) bhi (constant S4096x64 .f32 0x00000000#32))
        (matmul dot_S4096x64_S64x64_S4096x64_1_0_0_1_n_n none (truncf .bf16 a bitsLt_bf16_f32) blo (constant S4096x64 .f32 0x00000000#32)))
      (matmul dot_S4096x64_S64x64_S4096x64_1_0_0_1_n_n none (truncf .bf16 (subf a a) bitsLt_bf16_f32) bhi (constant S4096x64 .f32 0x00000000#32)) (ix2 r k)
      = ∑ j : Fin 64, (a (ix2 r j) : EReal) * (bhi (ix2 j k) : EReal) := by
  rw [addf_apply, addf_apply, dotOut_apply, dotOut_apply, dotOut_apply]
  exact sum_three_pass (fun j => a (ix2 r j)) (fun j => bhi (ix2 j k)) (fun j => blo (ix2 j k)) (fun j => ha _) (fun j => hlo _)

/-! ## The bias row broadcast along the samples -/

theorem bias_apply (v : Vec Ideal S1x64 .f32) (r : Fin 4096) (k : Fin 64) :
    broadcastTo S4096x64 v broadcasts_S1x64_S4096x64 (ix2 r k) = v (ix2 (0 : Fin 1) k) := by
  exact broadcastTo_apply v broadcasts_S1x64_S4096x64 (ix2 r k) (ix2 (0 : Fin 1) k) (fun a => match a with
    | ⟨0, _⟩ => by show (0 : Nat) = if (1 : Nat) = 1 then 0 else _; rw [if_pos rfl]
    | ⟨1, _⟩ => by show k.val = if (64 : Nat) = 1 then 0 else k.val; rw [if_neg (by decide)])

/-! ## The stored block at an entry -/

/-- The sample row of the 4096-row block that lane `q` of packed row `p` comes from. -/
abbrev rowOf (p : Fin 2048) (q : Fin 128) : Fin 4096 := ⟨2 * p.val + q.val / 64, by have := p.isLt; have := q.isLt; omega⟩
/-- Its output unit. -/
abbrev colOf (q : Fin 128) : Fin 64 := ⟨q.val % 64, Nat.mod_lt _ (by norm_num)⟩

theorem pay_apply (x0 : Vec Ideal S4096x512 .f32) (x1 x3 : Vec Ideal S512x64 .bf16) (x14 : Vec Ideal S1x64 .f32)
    (x19 x21 : Vec Ideal S64x64 .bf16) (x32 : Vec Ideal S1x64 .f32)
    (hx0 : ∀ i, ∃ r : ℝ, x0 i = (r : EReal)) (hx3 : ∀ i, x3 i = (0 : EReal)) (hx21 : ∀ i, x21 i = (0 : EReal))
    (p : Fin 2048) (q : Fin 128) :
    k0_pay1 (F := Ideal) x0 x1 x3 x14 x19 x21 x32 (ix2 p q)
      = Ideal.logistic ((∑ k : Fin 64, Ideal.tanh ((∑ j : Fin 512, (x0 (ix2 (rowOf p q) j) : EReal) * (x1 (ix2 j k) : EReal)) + x14 (ix2 (0 : Fin 1) k))
          * (x19 (ix2 k (colOf q)) : EReal)) + x32 (ix2 (0 : Fin 1) (colOf q))) := by
  unfold k0_pay1
  refine (shapeCast_apply _ _ (ix2 p q) (ix3 p (⟨q.val / 64, by have := q.isLt; omega⟩ : Fin 2) (colOf q))
    (by rw [Shape.rowMajor_val_three, Shape.rowMajor_val_two]
        show (p.val * 2 + q.val / 64) * 64 + q.val % 64 = p.val * 128 + q.val
        omega)).trans ?_
  refine (shapeCast_apply _ _ _ (ix2 (rowOf p q) (colOf q))
    (by rw [Shape.rowMajor_val_two, Shape.rowMajor_val_three]
        show (2 * p.val + q.val / 64) * 64 + q.val % 64 = (p.val * 2 + q.val / 64) * 64 + q.val % 64
        omega)).trans ?_
  simp only [shapeCast_self]
  show Ideal.logistic _ = _
  refine congrArg Ideal.logistic ?_
  rw [addf_apply, bias_apply]
  refine congrArg (· + (x32 (ix2 (0 : Fin 1) (colOf q)) : EReal)) ?_
  refine (dotOut_three _ x19 x21 (fun i => tanh_real _) hx21 _ _).trans ?_
  refine Finset.sum_congr rfl fun k _ => ?_
  refine congrArg (· * (x19 (ix2 k (colOf q)) : EReal)) ?_
  show Ideal.tanh _ = _
  refine congrArg Ideal.tanh ?_
  rw [addf_apply, bias_apply, dotIn_three x0 x1 x3 hx0 hx3]

/-- The same entry as the specification's output, when the blocks the body loaded are the rows `b`, … of the sample
    array, the transposed first 512 columns of the hidden weights, the transposed output weights and the two biases,
    and the low parts of both weights are zero. -/
theorem pay_eq_outAt (X : (⟨2, ![262144, 512]⟩ : Shape).Idx → EReal) (WH : (⟨2, ![64, 576]⟩ : Shape).Idx → EReal)
    (BH : (⟨1, ![64]⟩ : Shape).Idx → EReal) (WO : (⟨2, ![64, 64]⟩ : Shape).Idx → EReal) (BO : (⟨1, ![64]⟩ : Shape).Idx → EReal)
    (x0 : Vec Ideal S4096x512 .f32) (x1 x3 : Vec Ideal S512x64 .bf16) (x14 : Vec Ideal S1x64 .f32)
    (x19 x21 : Vec Ideal S64x64 .bf16) (x32 : Vec Ideal S1x64 .f32) (b : Fin 262144) (p : Fin 2048) (q : Fin 128)
    (hx0 : ∀ i, ∃ r : ℝ, x0 i = (r : EReal)) (hx3 : ∀ i, x3 i = (0 : EReal)) (hx21 : ∀ i, x21 i = (0 : EReal))
    (h0 : ∀ j : Fin 512, x0 (ix2 (rowOf p q) j) = X (ix2 b j))
    (h1 : ∀ (j : Fin 512) (k : Fin 64), x1 (ix2 j k) = WH (ix2 k (⟨j.val, by have := j.isLt; omega⟩ : Fin 576)))
    (h14 : ∀ k : Fin 64, x14 (ix2 (0 : Fin 1) k) = BH (ix1 k))
    (h19 : ∀ k o : Fin 64, x19 (ix2 k o) = WO (ix2 o k))
    (h32 : ∀ o : Fin 64, x32 (ix2 (0 : Fin 1) o) = BO (ix1 o)) :
    k0_pay1 (F := Ideal) x0 x1 x3 x14 x19 x21 x32 (ix2 p q) = outAt X WH BH WO BO b (colOf q) := by
  rw [pay_apply x0 x1 x3 x14 x19 x21 x32 hx0 hx3 hx21 p q]
  unfold outAt hiddenAt
  simp only [h0, h1, h14, h19, h32]

end Cert.Jordan.Body

end
-- ==== Proof.HostPre.lean ====
/-
  What the host operations before the kernel's launch leave in the buffers its windows read, at an index, on the
  extended reals. The hidden weights are sliced to their first 512 columns and transposed; the output weights are
  transposed; each is then split into a high part (the array itself, the format changes being the identity on the
  extended reals) and a low part (the array minus itself, zero wherever the entries are real numbers). The two
  biases are reshaped from 64 entries to one row of 64, which keeps the row-major position.
-/
import proofs.«100092_j80487687127278_2_alg».proof.Proof.Gen.KernelIdeal.Frame
import proofs.«100092_j80487687127278_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.Jordan.HostPre

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The buffers as terms of the argument arrays -/

/-- The hidden weights' first 512 columns, transposed: entry (j, k) is entry (k, j) of the argument. -/
abbrev whT : S512x64.Idx → EReal :=
  transpose S512x64 [1, 0]
    (extractStridedSlice S64x512 ![0, 0] (m ((c : Thread nD τ).loc main_arg1) : S64x576.Idx → EReal) slices_S64x576_S64x512_0_0)
    transposes_S64x512_S512x64_1_0

/-- The output weights, transposed. -/
abbrev woT : S64x64.Idx → EReal :=
  transpose S64x64 [1, 0] (m ((c : Thread nD τ).loc main_arg3) : S64x64.Idx → EReal) transposes_S64x64_S64x64_1_0

/-- The high part of the hidden weights is the transposed slice, narrowed. -/
theorem v2_eq : @Eq (S512x64.Idx → EReal) (V m c main_v2) (truncf (F := Ideal) .bf16 (whT m c) bitsLt_bf16_f32) := by
  show StableHlo.after hostOps0 (fun b => m (c, b)) (Proc.devRef .tc main_v2) = _
  after_results
  all_goals rfl

/-- The low part of the hidden weights is the transposed slice minus its narrowed-and-widened self, narrowed. -/
theorem v5_eq : @Eq (S512x64.Idx → EReal) (V m c main_v5)
    (truncf (F := Ideal) .bf16 (subf (F := Ideal) (φ := .f32) (whT m c) (extf .f32 (truncf (F := Ideal) .bf16 (whT m c) bitsLt_bf16_f32) bitsLt_bf16_f32)) bitsLt_bf16_f32) := by
  show StableHlo.after hostOps0 (fun b => m (c, b)) (Proc.devRef .tc main_v5) = _
  after_results
  all_goals rfl

/-- The high part of the output weights is their transpose, narrowed. -/
theorem v7_eq : @Eq (S64x64.Idx → EReal) (V m c main_v7) (truncf (F := Ideal) .bf16 (woT m c) bitsLt_bf16_f32) := by
  show StableHlo.after hostOps0 (fun b => m (c, b)) (Proc.devRef .tc main_v7) = _
  after_results
  all_goals rfl

/-- The low part of the output weights is their transpose minus its narrowed-and-widened self, narrowed. -/
theorem v10_eq : @Eq (S64x64.Idx → EReal) (V m c main_v10)
    (truncf (F := Ideal) .bf16 (subf (F := Ideal) (φ := .f32) (woT m c) (extf .f32 (truncf (F := Ideal) .bf16 (woT m c) bitsLt_bf16_f32) bitsLt_bf16_f32)) bitsLt_bf16_f32) := by
  show StableHlo.after hostOps0 (fun b => m (c, b)) (Proc.devRef .tc main_v10) = _
  after_results
  all_goals rfl

/-- The hidden bias as one row of 64. -/
theorem v11_eq : @Eq (S1x64.Idx → EReal) (V m c main_v11)
    (shapeCast S1x64 (m ((c : Thread nD τ).loc main_arg2) : S64.Idx → EReal) shapeCasts_S64_S1x64) := by
  show StableHlo.after hostOps0 (fun b => m (c, b)) (Proc.devRef .tc main_v11) = _
  after_results
  all_goals rfl

/-- The output bias as one row of 64. -/
theorem v12_eq : @Eq (S1x64.Idx → EReal) (V m c main_v12)
    (shapeCast S1x64 (m ((c : Thread nD τ).loc main_arg4) : S64.Idx → EReal) shapeCasts_S64_S1x64) := by
  show StableHlo.after hostOps0 (fun b => m (c, b)) (Proc.devRef .tc main_v12) = _
  after_results
  all_goals rfl

/-! ## Read at an index -/

/-- Entry (j, k) of the transposed slice is entry (k, j) of the hidden weights. -/
theorem whT_apply (j : Fin 512) (k : Fin 64) :
    whT m c (ix2 j k) = (m ((c : Thread nD τ).loc main_arg1) : S64x576.Idx → EReal) (ix2 k (⟨j.val, by have := j.isLt; omega⟩ : Fin 576)) := by
  refine (transpose_apply [1, 0] _ transposes_S64x512_S512x64_1_0 (ix2 j k) (ix2 k j) (fun b => match b with
    | ⟨0, _⟩ => rfl
    | ⟨1, _⟩ => rfl)).trans ?_
  exact extractStridedSlice_apply ![0, 0] _ slices_S64x576_S64x512_0_0 (ix2 k j) (ix2 k (⟨j.val, by have := j.isLt; omega⟩ : Fin 576)) (fun a => match a with
    | ⟨0, _⟩ => by show k.val = 0 + k.val; omega
    | ⟨1, _⟩ => by show j.val = 0 + j.val; omega)

/-- Entry (k, o) of the transposed output weights is entry (o, k) of the argument. -/
theorem woT_apply (k o : Fin 64) :
    woT m c (ix2 k o) = (m ((c : Thread nD τ).loc main_arg3) : S64x64.Idx → EReal) (ix2 o k) :=
  transpose_apply [1, 0] _ transposes_S64x64_S64x64_1_0 (ix2 k o) (ix2 o k) (fun b => match b with
    | ⟨0, _⟩ => rfl
    | ⟨1, _⟩ => rfl)

/-- The high hidden weights at (j, k): the argument at (k, j), the narrowing being the identity on the extended reals. -/
theorem whi_apply (j : Fin 512) (k : Fin 64) :
    (V m c main_v2 : S512x64.Idx → EReal) (ix2 j k)
      = (m ((c : Thread nD τ).loc main_arg1) : S64x576.Idx → EReal) (ix2 k (⟨j.val, by have := j.isLt; omega⟩ : Fin 576)) := by
  rw [v2_eq]
  exact whT_apply m c j k

/-- The low hidden weights vanish when the hidden weights are real: each entry is a real number minus itself. -/
theorem wlo_zero (h : ∀ i, ∃ r : ℝ, (m ((c : Thread nD τ).loc main_arg1) : S64x576.Idx → EReal) i = (r : EReal)) :
    ∀ i, (V m c main_v5 : S512x64.Idx → EReal) i = (0 : EReal) := by
  intro (i : S512x64.Idx)
  obtain ⟨j, k, rfl⟩ : ∃ (j : Fin 512) (k : Fin 64), i = ix2 j k := ⟨i 0, i 1, eq_ix2 i⟩
  rw [v5_eq]
  show whT m c (ix2 j k) - whT m c (ix2 j k) = 0
  refine Cert.Jordan.sub_self_of_real ?_
  rw [whT_apply]
  exact h _

/-- The high output weights at (k, o): the argument at (o, k). -/
theorem wohi_apply (k o : Fin 64) :
    (V m c main_v7 : S64x64.Idx → EReal) (ix2 k o) = (m ((c : Thread nD τ).loc main_arg3) : S64x64.Idx → EReal) (ix2 o k) := by
  rw [v7_eq]
  exact woT_apply m c k o

/-- The low output weights vanish when the output weights are real. -/
theorem wolo_zero (h : ∀ i, ∃ r : ℝ, (m ((c : Thread nD τ).loc main_arg3) : S64x64.Idx → EReal) i = (r : EReal)) :
    ∀ i, (V m c main_v10 : S64x64.Idx → EReal) i = (0 : EReal) := by
  intro (i : S64x64.Idx)
  obtain ⟨k, o, rfl⟩ : ∃ (k o : Fin 64), i = ix2 k o := ⟨i 0, i 1, eq_ix2 i⟩
  rw [v10_eq]
  show woT m c (ix2 k o) - woT m c (ix2 k o) = 0
  refine Cert.Jordan.sub_self_of_real ?_
  rw [woT_apply]
  exact h _

/-- One row of 64 read at (0, k) is entry k of the 64 it was reshaped from. -/
theorem row_apply (x : S64.Idx → EReal) (k : Fin 64) : shapeCast S1x64 x shapeCasts_S64_S1x64 (ix2 (0 : Fin 1) k) = x (ix1 k) := by
  refine shapeCast_apply x shapeCasts_S64_S1x64 (ix2 (0 : Fin 1) k) (ix1 k) ?_
  rw [Shape.rowMajor_val_one, Shape.rowMajor_val_two]
  show k.val = 0 * 64 + k.val
  omega

/-- The hidden bias row at (0, k) is entry k of the hidden bias. -/
theorem bh_apply (k : Fin 64) :
    (V m c main_v11 : S1x64.Idx → EReal) (ix2 (0 : Fin 1) k) = (m ((c : Thread nD τ).loc main_arg2) : S64.Idx → EReal) (ix1 k) := by
  rw [v11_eq]
  exact row_apply _ k

/-- The output bias row at (0, k) is entry k of the output bias. -/
theorem bo_apply (k : Fin 64) :
    (V m c main_v12 : S1x64.Idx → EReal) (ix2 (0 : Fin 1) k) = (m ((c : Thread nD τ).loc main_arg4) : S64.Idx → EReal) (ix1 k) := by
  rw [v12_eq]
  exact row_apply _ k

end Cert.Jordan.HostPre
-- ==== Proof.KernelValue.lean ====
/-
  From blocks to the array. Grid point `t` loads sample rows 4096t … 4096t + 4095 and the whole of each weight and
  bias array, and writes back rows 2048t … 2048t + 2047 of the packed 131072 × 128 array. By the body's entry formula
  the block it writes is the block of the specification's packed array, for inputs of real entries; the 64 blocks
  tile the packed array, so after the run it IS the packed array, and the host's final reshape reads it back as the
  262144 × 64 result.
-/
import proofs.«100092_j80487687127278_2_alg».proof.Defs
import proofs.«100092_j80487687127278_2_alg».proof.Proof.Gen.KernelIdeal.Frame
import proofs.«100092_j80487687127278_2_alg».proof.Proof.Gen.Pre_finite_inputs
import proofs.«100092_j80487687127278_2_alg».proof.Proof.Finite
import proofs.«100092_j80487687127278_2_alg».proof.Proof.Body
import proofs.«100092_j80487687127278_2_alg».proof.Proof.HostPre
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.Jordan.Kernel

open Cert.KernelIdeal Cert.KernelIdeal.Gen Cert.Jordan.Body Cert.Jordan.HostPre

variable (m : (ℓ : Loc nD τ sig) → Buf (Elt Ideal) ℓ) (ρ : Dev nD → PrngReg)

/-- The packed array of the specification, of the argument arrays as launched. -/
abbrev packedOf (c : Dev nD) : S131072x128.Idx → EReal :=
  packed (m ((c : Thread nD τ).loc main_arg0)) (m ((c : Thread nD τ).loc main_arg1)) (m ((c : Thread nD τ).loc main_arg2))
    (m ((c : Thread nD τ).loc main_arg3)) (m ((c : Thread nD τ).loc main_arg4))

/-- The result array of the specification, of the argument arrays as launched. -/
abbrev resultOf (c : Dev nD) : S262144x64.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-- The block indices, decided over the 64 grid points: the sample window and the output window are at block `t` of
    their first axis, every weight and bias window at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks -/

/-- Row `r` of the sample block at point `t` is row 4096t + r of the sample array. -/
theorem blk0_apply (c : Dev nD) (t : Fin cfg0.N) (r : Fin 4096) (j : Fin 512) (b : Fin 262144) (hb : b.val = 4096 * t.val + r.val) :
    (iblk m c 0 t : S4096x512.Idx → EReal) (ix2 r j) = (m ((c : Thread nD τ).loc main_arg0) : S262144x512.Idx → EReal) (ix2 b j) := by
  obtain ⟨e00, e01, e10, e11, e20, e21, e30, e31, e40, e41, e50, e51, e60, e61, e70, e71⟩ := idx_facts t
  unfold iblk
  rw [View.read_apply]
  show (V m c main_arg0 : S262144x512.Idx → EReal) _ = _
  rw [V_main_arg0]
  refine congrArg (m ((c : Thread nD τ).loc main_arg0) : S262144x512.Idx → EReal) (funext fun a => Fin.ext ?_)
  match a with
  | ⟨0, _⟩ => show win0_0.index t (0 : Fin 2) * 4096 + 1 * r.val = b.val; rw [e00, hb]; omega
  | ⟨1, _⟩ => show win0_0.index t (1 : Fin 2) * 512 + 1 * j.val = j.val; rw [e01]; omega

/-- Window 1's block is the whole of its array at every point. -/
theorem blk1_apply (c : Dev nD) (t : Fin cfg0.N) (y : S512x64.Idx) :
    (iblk m c 1 t : S512x64.Idx → EReal) y = (V m c main_v2 : S512x64.Idx → EReal) y := by
  obtain ⟨e00, e01, e10, e11, e20, e21, e30, e31, e40, e41, e50, e51, e60, e61, e70, e71⟩ := idx_facts t
  unfold iblk
  rw [View.read_apply]
  show (V m c main_v2 : S512x64.Idx → EReal) _ = _
  refine congrArg (V m c main_v2 : S512x64.Idx → EReal) (funext fun a => Fin.ext ?_)
  match a with
  | ⟨0, _⟩ => show win0_1.index t (0 : Fin 2) * 512 + 1 * (y 0).val = (y 0).val; rw [e10]; omega
  | ⟨1, _⟩ => show win0_1.index t (1 : Fin 2) * 64 + 1 * (y 1).val = (y 1).val; rw [e11]; omega

/-- Window 2's block is the whole of its array at every point. -/
theorem blk2_apply (c : Dev nD) (t : Fin cfg0.N) (y : S512x64.Idx) :
    (iblk m c 2 t : S512x64.Idx → EReal) y = (V m c main_v5 : S512x64.Idx → EReal) y := by
  obtain ⟨e00, e01, e10, e11, e20, e21, e30, e31, e40, e41, e50, e51, e60, e61, e70, e71⟩ := idx_facts t
  unfold iblk
  rw [View.read_apply]
  show (V m c main_v5 : S512x64.Idx → EReal) _ = _
  refine congrArg (V m c main_v5 : S512x64.Idx → EReal) (funext fun a => Fin.ext ?_)
  match a with
  | ⟨0, _⟩ => show win0_2.index t (0 : Fin 2) * 512 + 1 * (y 0).val = (y 0).val; rw [e20]; omega
  | ⟨1, _⟩ => show win0_2.index t (1 : Fin 2) * 64 + 1 * (y 1).val = (y 1).val; rw [e21]; omega

/-- Window 3's block is the whole of its array at every point. -/
theorem blk3_apply (c : Dev nD) (t : Fin cfg0.N) (y : S1x64.Idx) :
    (iblk m c 3 t : S1x64.Idx → EReal) y = (V m c main_v11 : S1x64.Idx → EReal) y := by
  obtain ⟨e00, e01, e10, e11, e20, e21, e30, e31, e40, e41, e50, e51, e60, e61, e70, e71⟩ := idx_facts t
  unfold iblk
  rw [View.read_apply]
  show (V m c main_v11 : S1x64.Idx → EReal) _ = _
  refine congrArg (V m c main_v11 : S1x64.Idx → EReal) (funext fun a => Fin.ext ?_)
  match a with
  | ⟨0, _⟩ => show win0_3.index t (0 : Fin 2) * 1 + 1 * (y 0).val = (y 0).val; rw [e30]; omega
  | ⟨1, _⟩ => show win0_3.index t (1 : Fin 2) * 64 + 1 * (y 1).val = (y 1).val; rw [e31]; omega

/-- Window 4's block is the whole of its array at every point. -/
theorem blk4_apply (c : Dev nD) (t : Fin cfg0.N) (y : S64x64.Idx) :
    (iblk m c 4 t : S64x64.Idx → EReal) y = (V m c main_v7 : S64x64.Idx → EReal) y := by
  obtain ⟨e00, e01, e10, e11, e20, e21, e30, e31, e40, e41, e50, e51, e60, e61, e70, e71⟩ := idx_facts t
  unfold iblk
  rw [View.read_apply]
  show (V m c main_v7 : S64x64.Idx → EReal) _ = _
  refine congrArg (V m c main_v7 : S64x64.Idx → EReal) (funext fun a => Fin.ext ?_)
  match a with
  | ⟨0, _⟩ => show win0_4.index t (0 : Fin 2) * 64 + 1 * (y 0).val = (y 0).val; rw [e40]; omega
  | ⟨1, _⟩ => show win0_4.index t (1 : Fin 2) * 64 + 1 * (y 1).val = (y 1).val; rw [e41]; omega

/-- Window 5's block is the whole of its array at every point. -/
theorem blk5_apply (c : Dev nD) (t : Fin cfg0.N) (y : S64x64.Idx) :
    (iblk m c 5 t : S64x64.Idx → EReal) y = (V m c main_v10 : S64x64.Idx → EReal) y := by
  obtain ⟨e00, e01, e10, e11, e20, e21, e30, e31, e40, e41, e50, e51, e60, e61, e70, e71⟩ := idx_facts t
  unfold iblk
  rw [View.read_apply]
  show (V m c main_v10 : S64x64.Idx → EReal) _ = _
  refine congrArg (V m c main_v10 : S64x64.Idx → EReal) (funext fun a => Fin.ext ?_)
  match a with
  | ⟨0, _⟩ => show win0_5.index t (0 : Fin 2) * 64 + 1 * (y 0).val = (y 0).val; rw [e50]; omega
  | ⟨1, _⟩ => show win0_5.index t (1 : Fin 2) * 64 + 1 * (y 1).val = (y 1).val; rw [e51]; omega

/-- Window 6's block is the whole of its array at every point. -/
theorem blk6_apply (c : Dev nD) (t : Fin cfg0.N) (y : S1x64.Idx) :
    (iblk m c 6 t : S1x64.Idx → EReal) y = (V m c main_v12 : S1x64.Idx → EReal) y := by
  obtain ⟨e00, e01, e10, e11, e20, e21, e30, e31, e40, e41, e50, e51, e60, e61, e70, e71⟩ := idx_facts t
  unfold iblk
  rw [View.read_apply]
  show (V m c main_v12 : S1x64.Idx → EReal) _ = _
  refine congrArg (V m c main_v12 : S1x64.Idx → EReal) (funext fun a => Fin.ext ?_)
  match a with
  | ⟨0, _⟩ => show win0_6.index t (0 : Fin 2) * 1 + 1 * (y 0).val = (y 0).val; rw [e60]; omega
  | ⟨1, _⟩ => show win0_6.index t (1 : Fin 2) * 64 + 1 * (y 1).val = (y 1).val; rw [e61]; omega

/-! ## What a point writes back -/

/-- Point `t` writes back block `t` of the packed array, when the samples and both weight matrices have real entries. -/
theorem flushed_eq (c : Dev nD)
    (hf0 : ∀ i, ∃ r : ℝ, (m ((c : Thread nD τ).loc main_arg0) : S262144x512.Idx → EReal) i = (r : EReal))
    (hf1 : ∀ i, ∃ r : ℝ, (m ((c : Thread nD τ).loc main_arg1) : S64x576.Idx → EReal) i = (r : EReal))
    (hf3 : ∀ i, ∃ r : ℝ, (m ((c : Thread nD τ).loc main_arg3) : S64x64.Idx → EReal) i = (r : EReal))
    (t : Fin cfg0.N) :
    (dats m 0 c).flushed 7 t = ((cfg0.win 7).blk t).view.read (Elt Ideal) (packedOf m c) := by
  show (cfg0.win 7).cut (grid0.coords t) ((dats m 0 c).after 7 t) = _
  rw [after0_7]
  unfold out0_7
  rw [View.canon_unit_zero hz]
  simp only [View.ld_unit_zero (S := S4096x512) hz, View.ld_unit_zero (S := S512x64) hz, View.ld_unit_zero (S := S1x64) hz,
    View.ld_unit_zero (S := S64x64) hz]
  obtain ⟨e00, e01, e10, e11, e20, e21, e30, e31, e40, e41, e50, e51, e60, e61, e70, e71⟩ := idx_facts t
  have hN : t.val < 64 := Nat.lt_of_lt_of_eq t.isLt N_0
  funext y
  obtain ⟨p, q, rfl⟩ : ∃ (p : Fin 2048) (q : Fin 128), y = ix2 p q := ⟨y 0, y 1, eq_ix2 y⟩
  have hp := p.isLt
  have hq := q.isLt
  refine (pay_eq_outAt (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t) (iblk m c 5 t) (iblk m c 6 t)
    (⟨4096 * t.val + (rowOf p q).val, by show 4096 * t.val + (2 * p.val + q.val / 64) < 262144; omega⟩ : Fin 262144) p q
    ?_ ?_ ?_ ?_ ?_ ?_ ?_ ?_).trans ?_
  · intro i
    obtain ⟨r, j, rfl⟩ : ∃ (r : Fin 4096) (j : Fin 512), i = ix2 r j := ⟨i 0, i 1, eq_ix2 i⟩
    have hr := r.isLt
    rw [blk0_apply m c t r j (⟨4096 * t.val + r.val, by omega⟩ : Fin 262144) rfl]
    exact hf0 _
  · intro i
    rw [blk2_apply m c t i]
    exact wlo_zero m c hf1 i
  · intro i
    rw [blk5_apply m c t i]
    exact wolo_zero m c hf3 i
  · intro j
    exact blk0_apply m c t (rowOf p q) j _ rfl
  · intro j k
    rw [blk1_apply m c t (ix2 j k)]
    exact whi_apply m c j k
  · intro k
    rw [blk3_apply m c t (ix2 (0 : Fin 1) k)]
    exact bh_apply m c k
  · intro k o
    rw [blk4_apply m c t (ix2 k o)]
    exact wohi_apply m c k o
  · intro o
    rw [blk6_apply m c t (ix2 (0 : Fin 1) o)]
    exact bo_apply m c o
  · show _ = packed _ _ _ _ _ (((cfg0.win 7).blk t).view.emb (ix2 p q))
    unfold packed
    refine congrArg₂ (outAt _ _ _ _ _) (Fin.ext ?_) (Fin.ext ?_)
    · show 4096 * t.val + (2 * p.val + q.val / 64) = 2 * (win0_7.index t (0 : Fin 2) * 2048 + 1 * p.val) + (win0_7.index t (1 : Fin 2) * 128 + 1 * q.val) / 64
      rw [e70, e71]; omega
    · show q.val % 64 = (win0_7.index t (1 : Fin 2) * 128 + 1 * q.val) % 64
      rw [e71]; omega

/-! ## The packed array after the run -/

/-- An index of the packed array is in point `t`'s block iff its row is among rows 2048t … 2048t + 2047. -/
theorem mem_blk (t : Fin cfg0.N) (i : S131072x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v13).slice (win0_7.rect t)).set ↔ _
  rw [View.set_slice_whole, Rect.mem_set_unit]
  exact Iff.rfl

/-- The 64 blocks tile the packed array: row `P` is in the block of point `P / 2048`. -/
theorem cover (i : S131072x128.Idx) : ∃ t : Fin cfg0.N, (cfg0.win 7).flush t = true ∧ i ∈ ((cfg0.win 7).blk t).view.set := by
  have h0 : (i 0).val < 131072 := idx2_lt0 i
  have h1 : (i 1).val < 128 := idx2_lt1 i
  let t : Fin cfg0.N := ⟨(i 0).val / 2048, by rw [show cfg0.N = 64 from N_0]; omega⟩
  obtain ⟨e00, e01, e10, e11, e20, e21, e30, e31, e40, e41, e50, e51, e60, e61, e70, e71⟩ := idx_facts t
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    rw [e70]; show (i 0).val / 2048 * 2048 ≤ (i 0).val ∧ (i 0).val < (i 0).val / 2048 * 2048 + 2048; omega
  | ⟨1, _⟩ =>
    show win0_7.index t (1 : Fin 2) * 128 ≤ (i 1).val ∧ (i 1).val < win0_7.index t (1 : Fin 2) * 128 + 128
    rw [e71]; omega

/-- After the run the packed array holds the specification's packed array. -/
theorem final (c : Dev nD)
    (hf0 : ∀ i, ∃ r : ℝ, (m ((c : Thread nD τ).loc main_arg0) : S262144x512.Idx → EReal) i = (r : EReal))
    (hf1 : ∀ i, ∃ r : ℝ, (m ((c : Thread nD τ).loc main_arg1) : S64x576.Idx → EReal) i = (r : EReal))
    (hf3 : ∀ i, ∃ r : ℝ, (m ((c : Thread nD τ).loc main_arg3) : S64x64.Idx → EReal) i = (r : EReal)) :
    (dats m 0 c).arrAt 7 cfg0.N = packedOf m c :=
  (dats m 0 c).arrAt_eq_of_cover 7 (packedOf m c) (fun t _ => flushed_eq m c hf0 hf1 hf3 t) (cover)

/-! ## The host's reshape after the region, and the run -/

/-- The result buffer after the run: the packed array read back as 64-wide rows. -/
theorem tail_eq (c : Dev nD)
    (hf0 : ∀ i, ∃ r : ℝ, (m ((c : Thread nD τ).loc main_arg0) : S262144x512.Idx → EReal) i = (r : EReal))
    (hf1 : ∀ i, ∃ r : ℝ, (m ((c : Thread nD τ).loc main_arg1) : S64x576.Idx → EReal) i = (r : EReal))
    (hf3 : ∀ i, ∃ r : ℝ, (m ((c : Thread nD τ).loc main_arg3) : S64x64.Idx → EReal) i = (r : EReal)) :
    Pipeline.afterTail₀ cfgs (dats m) 0 (V0 m) [hostOps1] c main_v14 = resultOf m c := by
  unfold Pipeline.afterTail₀
  show StableHlo.after hostOps1 _ (Proc.devRef .tc main_v14) = _
  after_results
  rw [(Pipeline.withArrays_arr spec0 launch0.win.arr_inj c _ _ 7).trans (final m c hf0 hf1 hf3)]
  exact unpack _ _ _ _ _ _

/-- The run of the idealized kernel program under the precondition: every weakly fair execution terminates with the
    result buffer at the specification's result array of the arguments, and the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v14) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
      obtain ⟨hf0, hf1, -, hf3, -⟩ := finite_of_pre _ _ _ _ _ (hpre c)
      exact ⟨((h c).2 main_v14 (Pipeline.mem_restRefs_of main_v14 (by decide) (by decide))).trans (tail_eq m c hf0 hf1 hf3),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.Jordan.Kernel

end
-- ==== Proof.lean ====
/-
  The certificate of the two-layer network kernel against its reference.

  Both programs compute out = σ(tanh(x · W_xᵀ + b_h) · W_oᵀ + b_o) row by row, W_x the first 512 columns of the hidden
  weights. The kernel forms each product in three passes over a high and a low part of each operand — on the extended
  reals the high part is the operand and the low part the operand minus itself, which is zero exactly when the operand
  is a real number: the precondition (every input finite) is used for the samples and for the two weight matrices, and
  the hidden layer is real because tanh is bounded. The kernel writes two samples per 128-wide row and the host's last
  reshape undoes the pairing. The three frames are the generated ones (the reference's from its generated run); the two
  ledger entries state that narrowing to bf16 and widening back is the identity on the extended reals.
-/
import proofs.«100092_j80487687127278_2_alg».proof.Defs
import proofs.«100092_j80487687127278_2_alg».proof.Proof.Gen.Kernel
import proofs.«100092_j80487687127278_2_alg».proof.Proof.Gen.Kernel.Skeleton
import proofs.«100092_j80487687127278_2_alg».proof.Proof.Gen.Kernel.Launch
import proofs.«100092_j80487687127278_2_alg».proof.Proof.Gen.Kernel.Points
import proofs.«100092_j80487687127278_2_alg».proof.Proof.Gen.Kernel.Frame
import proofs.«100092_j80487687127278_2_alg».proof.Proof.Gen.KernelIdeal
import proofs.«100092_j80487687127278_2_alg».proof.Proof.Gen.KernelIdeal.Skeleton
import proofs.«100092_j80487687127278_2_alg».proof.Proof.Gen.KernelIdeal.Launch
import proofs.«100092_j80487687127278_2_alg».proof.Proof.Gen.KernelIdeal.Points
import proofs.«100092_j80487687127278_2_alg».proof.Proof.Gen.KernelIdeal.Frame
import proofs.«100092_j80487687127278_2_alg».proof.Proof.Gen.ReferenceIdeal
import proofs.«100092_j80487687127278_2_alg».proof.Proof.Gen.Pre_finite_inputs
import proofs.«100092_j80487687127278_2_alg».proof.Proof.Gen.ReferenceIdeal.Run
import proofs.«100092_j80487687127278_2_alg».proof.Proof.Gen.ReferenceIdeal.Read
import proofs.«100092_j80487687127278_2_alg».proof.Proof.Finite
import proofs.«100092_j80487687127278_2_alg».proof.Proof.RefIs
import proofs.«100092_j80487687127278_2_alg».proof.Proof.KernelValue
import Idealize.ShloMosaic.Adequacy
import Idealize.ShloMosaic.Init

noncomputable section

namespace Cert.Proof

open Idealize.ShloMosaic Idealize.SL.Sem Cert.Kernel

/-- The two ledger entries: narrowing to bf16 and widening back is the identity on the extended reals. -/
theorem preserves : Cert.preserves_Kernel_KernelIdeal :=
  ⟨IdealRules.truncf_extf.statement Cert.KernelIdeal.S4096x512 .f32 .bf16,
    IdealRules.truncf_extf.statement Cert.KernelIdeal.S4096x64 .f32 .bf16⟩

/-- From memories that agree on the arguments both idealized programs end with the specification's result array of
    those arguments: the kernel's by its run read block by block, the reference's by its run read stage by stage. -/
theorem algebraic : Cert.algebraic_KernelIdeal_ReferenceIdeal := by
  intro m ρ m' ρ' hpre hagree
  refine ⟨fun c => Cert.Jordan.Kernel.resultOf m c, Cert.Jordan.Kernel.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Jordan.Reference.reference_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  preserves, algebraic⟩

end Cert.Proof

end
